-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S256 .f32) (main_arg6 : FVec F S256x64 .f32) (main_arg7 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S2000x512 : Shape := ⟨2, ![2000, 512]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 51
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S50000x256, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x64, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x64, .f32⟩
  | .local _ .vmem, ⟨8, _⟩ => ⟨S2000x64, .f32⟩
  | .local _ .vmem, ⟨9, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S50000x256, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x64, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.HostStretches.lean ====
/-
  The two host stretches of the idealized kernel, each as one term of what it reads.

  Between and after its two regions the kernel runs the same line of host operations the reference runs around its two
  `dot_general`s: gather the projected rows at the edges' sources, scale by the edge values, scatter-add into the edges'
  targets, add the bias (and, after the first layer, relu). What a stretch leaves in its last buffer is that line's
  composed term of the buffers it reads. No host operation and no region writes an argument array, so wherever a
  stretch reads an argument it reads the launch memory; the one other buffer a stretch reads is the projection the
  region before it wrote. If that projection is the reference's stage, the stretch's result is the reference's later
  stage: the reference's stage functions compose the same operations over records of dimensions that carry the same
  numbers, so the two spellings are one term. The composed terms are compared as wholes, at any float instance, and
  never opened.
-/
import proofs.«143341_j25091198943314_1_alg».proof.Proof.Gen.KernelIdeal.Frame
import proofs.«143341_j25091198943314_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The arguments, read where the stretches and the regions read them -/

/-- Region 0 writes only its result buffer: an argument outside its windows is as launched. -/
theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg7 (c : Dev nD) : W1 m ρ c (Proc.devRef .tc main_arg7) = m ((c : Thread nD τ).loc main_arg7) := W1_of_ne m ρ c main_arg7 (by decide)

/-- The first host stretch writes no argument. -/
theorem W3_arg1 (c : Dev nD) : W3 m ρ c (Proc.devRef .tc main_arg1) = m ((c : Thread nD τ).loc main_arg1) := by
  show StableHlo.after hostOps1_1 (StableHlo.after hostOps1 (W1 m ρ c)) (Proc.devRef .tc main_arg1) = _
  simp only [hostOps1, hostOps1_1]
  after_results
  exact W1_arg1 m ρ c
theorem W3_arg2 (c : Dev nD) : W3 m ρ c (Proc.devRef .tc main_arg2) = m ((c : Thread nD τ).loc main_arg2) := by
  show StableHlo.after hostOps1_1 (StableHlo.after hostOps1 (W1 m ρ c)) (Proc.devRef .tc main_arg2) = _
  simp only [hostOps1, hostOps1_1]
  after_results
  exact W1_arg2 m ρ c
theorem W3_arg3 (c : Dev nD) : W3 m ρ c (Proc.devRef .tc main_arg3) = m ((c : Thread nD τ).loc main_arg3) := by
  show StableHlo.after hostOps1_1 (StableHlo.after hostOps1 (W1 m ρ c)) (Proc.devRef .tc main_arg3) = _
  simp only [hostOps1, hostOps1_1]
  after_results
  exact W1_arg3 m ρ c
theorem W3_arg6 (c : Dev nD) : W3 m ρ c (Proc.devRef .tc main_arg6) = m ((c : Thread nD τ).loc main_arg6) := by
  show StableHlo.after hostOps1_1 (StableHlo.after hostOps1 (W1 m ρ c)) (Proc.devRef .tc main_arg6) = _
  simp only [hostOps1, hostOps1_1]
  after_results
  exact W1_arg6 m ρ c
theorem W3_arg7 (c : Dev nD) : W3 m ρ c (Proc.devRef .tc main_arg7) = m ((c : Thread nD τ).loc main_arg7) := by
  show StableHlo.after hostOps1_1 (StableHlo.after hostOps1 (W1 m ρ c)) (Proc.devRef .tc main_arg7) = _
  simp only [hostOps1, hostOps1_1]
  after_results
  exact W1_arg7 m ρ c

/-- Region 1 writes only its result buffer. -/
theorem W4_arg1 (c : Dev nD) : W4 m ρ c (Proc.devRef .tc main_arg1) = m ((c : Thread nD τ).loc main_arg1) := (W4_of_ne m ρ c main_arg1 (by decide)).trans (W3_arg1 m ρ c)
theorem W4_arg2 (c : Dev nD) : W4 m ρ c (Proc.devRef .tc main_arg2) = m ((c : Thread nD τ).loc main_arg2) := (W4_of_ne m ρ c main_arg2 (by decide)).trans (W3_arg2 m ρ c)
theorem W4_arg3 (c : Dev nD) : W4 m ρ c (Proc.devRef .tc main_arg3) = m ((c : Thread nD τ).loc main_arg3) := (W4_of_ne m ρ c main_arg3 (by decide)).trans (W3_arg3 m ρ c)
theorem W4_arg7 (c : Dev nD) : W4 m ρ c (Proc.devRef .tc main_arg7) = m ((c : Thread nD τ).loc main_arg7) := (W4_of_ne m ρ c main_arg7 (by decide)).trans (W3_arg7 m ρ c)

/-! ## The two stretches -/

set_option maxHeartbeats 2000000 in
/-- The first stretch: if region 0 left x·W1 (the reference's first stage) in the projection buffer, the hidden-layer
    buffer ends at the reference's hidden layer. -/
theorem stretch1 (c : Dev nD)
    (hv0 : W1 m ρ c (Proc.devRef .tc main_v0) = Cert.ReferenceIdeal.Read.val_main_v0 (F := F) (m ((c : Thread nD τ).loc main_arg0)) (m ((c : Thread nD τ).loc main_arg4))) :
    W3 m ρ c (Proc.devRef .tc main_v17) = Cert.ReferenceIdeal.Read.val_main_v17 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1_1 (StableHlo.after hostOps1 (W1 m ρ c)) (Proc.devRef .tc main_v17) = _
  simp only [hostOps1, hostOps1_1]
  after_results_simp
  rw [hv0, W1_arg1, W1_arg2, W1_arg3, W1_arg5]
  rfl

set_option maxHeartbeats 2000000 in
/-- The second stretch: if region 1 left h·W2 (the reference's stage) in the second projection buffer, the result
    buffer ends at the reference's result. -/
theorem stretch2 (c : Dev nD)
    (hv18 : W4 m ρ c (Proc.devRef .tc main_v18) = Cert.ReferenceIdeal.Read.val_main_v18 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W5 m ρ c (Proc.devRef .tc main_v34) = Cert.ReferenceIdeal.Read.val_main_v34 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v34) = _
  simp only [hostOps2]
  after_results_simp
  rw [hv18, W4_arg1, W4_arg2, W4_arg3, W4_arg7]
  rfl

end Cert.KernelIdeal.Hand

end
-- ==== Proof.DenseBody.lean ====
/-
  The two kernel bodies, read at an element.

  Each body loads a block of rows `a` ([2000, K]) and the whole weight matrix `w` ([K, N]), narrows both to bf16 — a
  change of float format, the identity on the extended reals —, multiplies them into a zero accumulator and stores the
  product. So the element (r, c) of what a body stores is the finite sum over the contracted index k of a[r, k] · w[k, c]:
  the zero accumulator adds nothing, and the product's contraction index set, a one-axis shape, is re-indexed by
  `Fin K`. (The second body's reshape of its left operand to its own shape is the identity.)
-/
import proofs.«143341_j25091198943314_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Dense

open Cert.KernelIdeal Cert.KernelIdeal.Gen Idealize.ShloMosaic Idealize.ShloMosaic.TcCoe Idealize.SL.Sem

/-- A block stored or loaded whole starts at offset zero on both axes. -/
theorem hz : (![0, 0] : Fin 2 → Nat) = fun _ => 0 := funext fun a => by fin_cases a <;> rfl

/-! ## Layer 1: [2000, 512] × [512, 256] -/

/-- Entry (r, k) of the left block, for the output element `y = (r, c)`. -/
abbrev lrow0 (y : S2000x256.Idx) (k : Fin 512) : S2000x512.Idx := fun a => match a with
  | ⟨0, _⟩ => ⟨(y 0).val, (y 0).isLt⟩
  | ⟨1, _⟩ => ⟨k.val, k.isLt⟩
/-- Entry (k, c) of the weights, for the output element `y = (r, c)`. -/
abbrev rcol0 (y : S2000x256.Idx) (k : Fin 512) : S512x256.Idx := fun a => match a with
  | ⟨0, _⟩ => ⟨k.val, k.isLt⟩
  | ⟨1, _⟩ => ⟨(y 1).val, (y 1).isLt⟩

theorem lhs0_0 (i : S2000x256.Idx) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs0_1 (i : S2000x256.Idx) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem rhs0_0 (i : S2000x256.Idx) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem rhs0_1 (i : S2000x256.Idx) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- What the body stores, at (r, c): ∑ₖ a[r, k] · w[k, c]. -/
theorem pay0_apply (a : Vec Ideal S2000x512 .f32) (w : Vec Ideal S512x256 .f32) (y : S2000x256.Idx) :
    k0_pay1 (F := Ideal) a w y = ∑ k : Fin 512, a (lrow0 y k) * w (rcol0 y k) := by
  unfold k0_pay1
  simp only [matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx y ((ValueIdx.contrEquiv1 dot_S2000x512_S512x256_S2000x256_1_0_0_1_n_n 512 rfl rfl).symm k) = lrow0 y k := funext fun b => Fin.ext (by
    match b with
    | ⟨0, _⟩ => exact lhs0_0 _ _
    | ⟨1, _⟩ => exact (lhs0_1 _ _).trans hk)
  have er : dot_S2000x512_S512x256_S2000x256_1_0_0_1_n_n.rhsIdx y ((ValueIdx.contrEquiv1 dot_S2000x512_S512x256_S2000x256_1_0_0_1_n_n 512 rfl rfl).symm k) = rcol0 y k := funext fun b => Fin.ext (by
    match b with
    | ⟨0, _⟩ => exact (rhs0_0 _ _).trans hk
    | ⟨1, _⟩ => exact rhs0_1 _ _)
  rw [el, er]
  rfl

/-! ## Layer 2: [2000, 256] × [256, 64] -/

/-- Entry (r, k) of the left block, for the output element `y = (r, c)`. -/
abbrev lrow1 (y : S2000x64.Idx) (k : Fin 256) : S2000x256.Idx := fun a => match a with
  | ⟨0, _⟩ => ⟨(y 0).val, (y 0).isLt⟩
  | ⟨1, _⟩ => ⟨k.val, k.isLt⟩
/-- Entry (k, c) of the weights, for the output element `y = (r, c)`. -/
abbrev rcol1 (y : S2000x64.Idx) (k : Fin 256) : S256x64.Idx := fun a => match a with
  | ⟨0, _⟩ => ⟨k.val, k.isLt⟩
  | ⟨1, _⟩ => ⟨(y 1).val, (y 1).isLt⟩

theorem lhs1_0 (i : S2000x64.Idx) (q : dot_S2000x256_S256x64_S2000x64_1_0_0_1_n_n.contr.Idx) : (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs1_1 (i : S2000x64.Idx) (q : dot_S2000x256_S256x64_S2000x64_1_0_0_1_n_n.contr.Idx) : (dot_S2000x256_S256x64_S2000x64_1_0_0_1_n_n.lhsIdx i q 1).val = (q ⟨0, by decide⟩).val :=
  dot_S2000x256_S256x64_S2000x64_1_0_0_1_n_n.lhsIdx_val_of_single rfl i q
theorem rhs1_0 (i : S2000x64.Idx) (q : dot_S2000x256_S256x64_S2000x64_1_0_0_1_n_n.contr.Idx) : (dot_S2000x256_S256x64_S2000x64_1_0_0_1_n_n.rhsIdx i q 0).val = (q ⟨0, by decide⟩).val :=
  dot_S2000x256_S256x64_S2000x64_1_0_0_1_n_n.rhsIdx_val_of_single rfl i q
theorem rhs1_1 (i : S2000x64.Idx) (q : dot_S2000x256_S256x64_S2000x64_1_0_0_1_n_n.contr.Idx) : (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- What the body stores, at (r, c): ∑ₖ a[r, k] · w[k, c]. -/
theorem pay1_apply (a : Vec Ideal S2000x256 .f32) (w : Vec Ideal S256x64 .f32) (y : S2000x64.Idx) :
    k1_pay1 (F := Ideal) a w y = ∑ k : Fin 256, a (lrow1 y k) * w (rcol1 y k) := by
  unfold k1_pay1
  simp only [matmul, shapeCast_self]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx y ((ValueIdx.contrEquiv1 dot_S2000x256_S256x64_S2000x64_1_0_0_1_n_n 256 rfl rfl).symm k) = lrow1 y k := funext fun b => Fin.ext (by
    match b with
    | ⟨0, _⟩ => exact lhs1_0 _ _
    | ⟨1, _⟩ => exact (lhs1_1 _ _).trans hk)
  have er : dot_S2000x256_S256x64_S2000x64_1_0_0_1_n_n.rhsIdx y ((ValueIdx.contrEquiv1 dot_S2000x256_S256x64_S2000x64_1_0_0_1_n_n 256 rfl rfl).symm k) = rcol1 y k := funext fun b => Fin.ext (by
    match b with
    | ⟨0, _⟩ => exact (rhs1_0 _ _).trans hk
    | ⟨1, _⟩ => exact rhs1_1 _ _)
  rw [el, er]
  rfl

end Cert.KernelIdeal.Dense

end
-- ==== Proof.DenseLayer1.lean ====
/-
  Layer 1's dense projection, read as one array.

  The grid has 25 points; point t multiplies rows 2000·t … 2000·t + 1999 of the left array by the whole weight matrix and
  writes rows 2000·t … 2000·t + 1999 of the result. Element (r, c) of what point t writes is ∑ₖ a[2000·t + r, k] · w[k, c],
  which is element (2000·t + r, c) of the full product a·w: every point writes its own block of ONE array, the 25 blocks
  tile the 50000 rows, so after the region the result array IS the full product — the host's `dot_general` of the two
  arrays as the region finds them, both read at the extended reals as the same finite sum.
-/
import proofs.«143341_j25091198943314_1_alg».proof.Proof.Gen.KernelIdeal.Frame
import proofs.«143341_j25091198943314_1_alg».proof.Proof.Gen.ReferenceIdeal.Read
import proofs.«143341_j25091198943314_1_alg».proof.Proof.DenseBody

set_option maxRecDepth 16384

noncomputable section

namespace Cert.KernelIdeal.Dense

open Cert.KernelIdeal Cert.KernelIdeal.Gen Idealize.ShloMosaic Idealize.ShloMosaic.TcCoe Idealize.SL.Sem
open Idealize.ShloMosaic.Pipeline (Dat)

/-- The full product of a [50000, 512] array and a [512, 256] matrix: the host's `dot_general` contracting the
    left operand's columns with the right operand's rows. -/
def project1 (a : FVec Ideal Cert.ReferenceIdeal.S50000x512 .f32) (w : FVec Ideal Cert.ReferenceIdeal.S512x256 .f32) : FVec Ideal Cert.ReferenceIdeal.S50000x256 .f32 :=
  Host.dotGeneral (F := Ideal) (φ₁ := .f32) (φ₂ := .f32) Cert.ReferenceIdeal.dot_S50000x512_S512x256_S50000x256_1_0_0_1_n_n none a w

/-- Its element (r, c) is ∑ₖ a[r, k] · w[k, c]. -/
theorem project1_apply (a : FVec Ideal Cert.ReferenceIdeal.S50000x512 .f32) (w : FVec Ideal Cert.ReferenceIdeal.S512x256 .f32) (i : Cert.ReferenceIdeal.S50000x256.Idx) :
    project1 a w i = ∑ k : Fin 512, a (Cert.ReferenceIdeal.Read.lidx_main_v0 i k) * w (Cert.ReferenceIdeal.Read.ridx_main_v0 i k) := by
  unfold project1
  simp only [Host.dotGeneral]
  rw [Ideal.dotGeneral_apply, ← Equiv.sum_comp (ValueIdx.contrEquiv1 Cert.ReferenceIdeal.dot_S50000x512_S512x256_S50000x256_1_0_0_1_n_n 512 rfl rfl).symm]
  refine Finset.sum_congr rfl fun k _ => ?_
  have hk := ValueIdx.contrEquiv1_symm_val Cert.ReferenceIdeal.dot_S50000x512_S512x256_S50000x256_1_0_0_1_n_n 512 rfl rfl k
  have el : Cert.ReferenceIdeal.dot_S50000x512_S512x256_S50000x256_1_0_0_1_n_n.lhsIdx i ((ValueIdx.contrEquiv1 Cert.ReferenceIdeal.dot_S50000x512_S512x256_S50000x256_1_0_0_1_n_n 512 rfl rfl).symm k) = Cert.ReferenceIdeal.Read.lidx_main_v0 i k := funext fun b => Fin.ext (by
    match b with
    | ⟨0, _⟩ => exact Cert.ReferenceIdeal.Read.lhs_main_v0_0 _ _
    | ⟨1, _⟩ => exact (Cert.ReferenceIdeal.Read.lhs_main_v0_1 _ _).trans hk)
  have er : Cert.ReferenceIdeal.dot_S50000x512_S512x256_S50000x256_1_0_0_1_n_n.rhsIdx i ((ValueIdx.contrEquiv1 Cert.ReferenceIdeal.dot_S50000x512_S512x256_S50000x256_1_0_0_1_n_n 512 rfl rfl).symm k) = Cert.ReferenceIdeal.Read.ridx_main_v0 i k := funext fun b => Fin.ext (by
    match b with
    | ⟨0, _⟩ => exact (Cert.ReferenceIdeal.Read.rhs_main_v0_0 _ _).trans hk
    | ⟨1, _⟩ => exact Cert.ReferenceIdeal.Read.rhs_main_v0_1 _ _)
  rw [el, er]

variable (V : (c : Dev nD) → (b : Ref sig .tc) → Buf (Elt Ideal) ((c : Thread nD τ).loc b))

/-- The product of the two operand arrays as region 0 finds them. -/
def prod1 (c : Dev nD) : S50000x256.Idx → EReal :=
  project1 (V c main_arg0) (V c main_arg4)

/-- The block index maps over the grid: the left operand's and the result's row blocks move together, every other block
    index is zero, and the row block index stays below 25. -/
theorem idx_facts1 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row block of the result is some point's. -/
theorem idx_onto1 : ∀ q : Fin 25, ∃ t : Fin cfg0.N, win0_2.index t = ![q.val, 0] :=
  (by decide +kernel : ∀ q : Fin 25, ∃ t : Fin grid0.N, win0_2.index t = ![q.val, 0])

/-- What point t writes back is block t of the full product. -/
theorem flushed_eq1 (c : Dev nD) (t : Fin cfg0.N) :
    (dat0 V c).flushed 2 t = ((cfg0.win 2).blk t).view.read (Elt Ideal) (prod1 V c) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts1 t
  funext y
  show k0_pay1 (F := Ideal) (iblk0 V c 0 t) (iblk0 V c 1 t) y = prod1 V c (((cfg0.win 2).blk t).view.emb y)
  refine (pay0_apply _ _ y).trans ?_
  unfold prod1
  refine Eq.trans ?_ (project1_apply _ _ _).symm
  refine Finset.sum_congr rfl fun k _ => ?_
  have hl : ((cfg0.win 0).blk t).view.emb (lrow0 y k) = Cert.ReferenceIdeal.Read.lidx_main_v0 (((cfg0.win 2).blk t).view.emb y) k := by
    funext b; apply Fin.ext
    match b with
    | ⟨0, _⟩ => show win0_0.index t (0 : Fin 2) * 2000 + 1 * (y 0).val = win0_2.index t (0 : Fin 2) * 2000 + 1 * (y 0).val; omega
    | ⟨1, _⟩ => show win0_0.index t (1 : Fin 2) * 512 + 1 * k.val = k.val; omega
  have hr : ((cfg0.win 1).blk t).view.emb (rcol0 y k) = Cert.ReferenceIdeal.Read.ridx_main_v0 (((cfg0.win 2).blk t).view.emb y) k := by
    funext b; apply Fin.ext
    match b with
    | ⟨0, _⟩ => show win0_1.index t (0 : Fin 2) * 512 + 1 * k.val = k.val; omega
    | ⟨1, _⟩ => show win0_1.index t (1 : Fin 2) * 256 + 1 * (y 1).val = win0_2.index t (1 : Fin 2) * 256 + 1 * (y 1).val; omega
  have e1 : iblk0 V c 0 t (lrow0 y k) = V c main_arg0 (Cert.ReferenceIdeal.Read.lidx_main_v0 (((cfg0.win 2).blk t).view.emb y) k) := congrArg (V c main_arg0) hl
  have e2 : iblk0 V c 1 t (rcol0 y k) = V c main_arg4 (Cert.ReferenceIdeal.Read.ridx_main_v0 (((cfg0.win 2).blk t).view.emb y) k) := congrArg (V c main_arg4) hr
  rw [e1, e2]

/-- An index of the result array is in point t's block iff each coordinate is in the block's range on its axis. -/
theorem mem_blk1 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Row r of the result is written by the point whose row block is r / 2000. -/
theorem cover1 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto1 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk1]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After region 0 its result array holds the full product of its two operand arrays. -/
theorem final1 (c : Dev nD) : (dat0 V c).arrAt 2 cfg0.N = prod1 V c :=
  (dat0 V c).arrAt_eq_of_cover 2 (prod1 V c) (fun t _ => flushed_eq1 V c t) cover1

end Cert.KernelIdeal.Dense

end
-- ==== Proof.DenseLayer2.lean ====
/-
  Layer 2's dense projection, read as one array.

  The grid has 25 points; point t multiplies rows 2000·t … 2000·t + 1999 of the left array by the whole weight matrix and
  writes rows 2000·t … 2000·t + 1999 of the result. Element (r, c) of what point t writes is ∑ₖ a[2000·t + r, k] · w[k, c],
  which is element (2000·t + r, c) of the full product a·w: every point writes its own block of ONE array, the 25 blocks
  tile the 50000 rows, so after the region the result array IS the full product — the host's `dot_general` of the two
  arrays as the region finds them, both read at the extended reals as the same finite sum.
-/
import proofs.«143341_j25091198943314_1_alg».proof.Proof.Gen.KernelIdeal.Frame
import proofs.«143341_j25091198943314_1_alg».proof.Proof.Gen.ReferenceIdeal.Read
import proofs.«143341_j25091198943314_1_alg».proof.Proof.DenseBody

set_option maxRecDepth 16384

noncomputable section

namespace Cert.KernelIdeal.Dense

open Cert.KernelIdeal Cert.KernelIdeal.Gen Idealize.ShloMosaic Idealize.ShloMosaic.TcCoe Idealize.SL.Sem
open Idealize.ShloMosaic.Pipeline (Dat)

/-- The full product of a [50000, 256] array and a [256, 64] matrix: the host's `dot_general` contracting the
    left operand's columns with the right operand's rows. -/
def project2 (a : FVec Ideal Cert.ReferenceIdeal.S50000x256 .f32) (w : FVec Ideal Cert.ReferenceIdeal.S256x64 .f32) : FVec Ideal Cert.ReferenceIdeal.S50000x64 .f32 :=
  Host.dotGeneral (F := Ideal) (φ₁ := .f32) (φ₂ := .f32) Cert.ReferenceIdeal.dot_S50000x256_S256x64_S50000x64_1_0_0_1_n_n none a w

/-- Its element (r, c) is ∑ₖ a[r, k] · w[k, c]. -/
theorem project2_apply (a : FVec Ideal Cert.ReferenceIdeal.S50000x256 .f32) (w : FVec Ideal Cert.ReferenceIdeal.S256x64 .f32) (i : Cert.ReferenceIdeal.S50000x64.Idx) :
    project2 a w i = ∑ k : Fin 256, a (Cert.ReferenceIdeal.Read.lidx_main_v18 i k) * w (Cert.ReferenceIdeal.Read.ridx_main_v18 i k) := by
  unfold project2
  simp only [Host.dotGeneral]
  rw [Ideal.dotGeneral_apply, ← Equiv.sum_comp (ValueIdx.contrEquiv1 Cert.ReferenceIdeal.dot_S50000x256_S256x64_S50000x64_1_0_0_1_n_n 256 rfl rfl).symm]
  refine Finset.sum_congr rfl fun k _ => ?_
  have hk := ValueIdx.contrEquiv1_symm_val Cert.ReferenceIdeal.dot_S50000x256_S256x64_S50000x64_1_0_0_1_n_n 256 rfl rfl k
  have el : Cert.ReferenceIdeal.dot_S50000x256_S256x64_S50000x64_1_0_0_1_n_n.lhsIdx i ((ValueIdx.contrEquiv1 Cert.ReferenceIdeal.dot_S50000x256_S256x64_S50000x64_1_0_0_1_n_n 256 rfl rfl).symm k) = Cert.ReferenceIdeal.Read.lidx_main_v18 i k := funext fun b => Fin.ext (by
    match b with
    | ⟨0, _⟩ => exact Cert.ReferenceIdeal.Read.lhs_main_v18_0 _ _
    | ⟨1, _⟩ => exact (Cert.ReferenceIdeal.Read.lhs_main_v18_1 _ _).trans hk)
  have er : Cert.ReferenceIdeal.dot_S50000x256_S256x64_S50000x64_1_0_0_1_n_n.rhsIdx i ((ValueIdx.contrEquiv1 Cert.ReferenceIdeal.dot_S50000x256_S256x64_S50000x64_1_0_0_1_n_n 256 rfl rfl).symm k) = Cert.ReferenceIdeal.Read.ridx_main_v18 i k := funext fun b => Fin.ext (by
    match b with
    | ⟨0, _⟩ => exact (Cert.ReferenceIdeal.Read.rhs_main_v18_0 _ _).trans hk
    | ⟨1, _⟩ => exact Cert.ReferenceIdeal.Read.rhs_main_v18_1 _ _)
  rw [el, er]

variable (V : (c : Dev nD) → (b : Ref sig .tc) → Buf (Elt Ideal) ((c : Thread nD τ).loc b))

/-- The product of the two operand arrays as region 1 finds them. -/
def prod2 (c : Dev nD) : S50000x64.Idx → EReal :=
  project2 (V c main_v17) (V c main_arg6)

/-- The block index maps over the grid: the left operand's and the result's row blocks move together, every other block
    index is zero, and the row block index stays below 25. -/
theorem idx_facts2 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

/-- Every row block of the result is some point's. -/
theorem idx_onto2 : ∀ q : Fin 25, ∃ t : Fin cfg1.N, win1_2.index t = ![q.val, 0] :=
  (by decide +kernel : ∀ q : Fin 25, ∃ t : Fin grid1.N, win1_2.index t = ![q.val, 0])

/-- What point t writes back is block t of the full product. -/
theorem flushed_eq2 (c : Dev nD) (t : Fin cfg1.N) :
    (dat1 V c).flushed 2 t = ((cfg1.win 2).blk t).view.read (Elt Ideal) (prod2 V c) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x64) hz]
  obtain ⟨e0, e1, e2, e3, e4, e5⟩ := idx_facts2 t
  funext y
  show k1_pay1 (F := Ideal) (iblk1 V c 0 t) (iblk1 V c 1 t) y = prod2 V c (((cfg1.win 2).blk t).view.emb y)
  refine (pay1_apply _ _ y).trans ?_
  unfold prod2
  refine Eq.trans ?_ (project2_apply _ _ _).symm
  refine Finset.sum_congr rfl fun k _ => ?_
  have hl : ((cfg1.win 0).blk t).view.emb (lrow1 y k) = Cert.ReferenceIdeal.Read.lidx_main_v18 (((cfg1.win 2).blk t).view.emb y) k := by
    funext b; apply Fin.ext
    match b with
    | ⟨0, _⟩ => show win1_0.index t (0 : Fin 2) * 2000 + 1 * (y 0).val = win1_2.index t (0 : Fin 2) * 2000 + 1 * (y 0).val; omega
    | ⟨1, _⟩ => show win1_0.index t (1 : Fin 2) * 256 + 1 * k.val = k.val; omega
  have hr : ((cfg1.win 1).blk t).view.emb (rcol1 y k) = Cert.ReferenceIdeal.Read.ridx_main_v18 (((cfg1.win 2).blk t).view.emb y) k := by
    funext b; apply Fin.ext
    match b with
    | ⟨0, _⟩ => show win1_1.index t (0 : Fin 2) * 256 + 1 * k.val = k.val; omega
    | ⟨1, _⟩ => show win1_1.index t (1 : Fin 2) * 64 + 1 * (y 1).val = win1_2.index t (1 : Fin 2) * 64 + 1 * (y 1).val; omega
  have e1 : iblk1 V c 0 t (lrow1 y k) = V c main_v17 (Cert.ReferenceIdeal.Read.lidx_main_v18 (((cfg1.win 2).blk t).view.emb y) k) := congrArg (V c main_v17) hl
  have e2 : iblk1 V c 1 t (rcol1 y k) = V c main_arg6 (Cert.ReferenceIdeal.Read.ridx_main_v18 (((cfg1.win 2).blk t).view.emb y) k) := congrArg (V c main_arg6) hr
  rw [e1, e2]

/-- An index of the result array is in point t's block iff each coordinate is in the block's range on its axis. -/
theorem mem_blk2 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v18).slice (win1_2.rect t)).set ↔ _
  rw [View.set_slice_whole, Rect.mem_set_unit]
  exact Iff.rfl

/-- Row r of the result is written by the point whose row block is r / 2000. -/
theorem cover2 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto2 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After region 1 its result array holds the full product of its two operand arrays. -/
theorem final2 (c : Dev nD) : (dat1 V c).arrAt 2 cfg1.N = prod2 V c :=
  (dat1 V c).arrAt_eq_of_cover 2 (prod2 V c) (fun t _ => flushed_eq2 V c t) cover2

end Cert.KernelIdeal.Dense

end
-- ==== Proof.KernelRun.lean ====
/-
  The idealized kernel's run with its result named.

  @main is five segments: the first projection's region, the host stretch that aggregates over the edges (gather the
  projected rows at the edges' sources, scale by the edge values, scatter-add into the edges' targets), adds the bias and
  applies relu, the second projection's region, and the host stretch that aggregates and adds the second bias. The run
  threads "every unscoped buffer holds the contents of the current boundary" through the five segments; the last
  boundary's contents are `W5`, the fold of the last host stretch over what the second region leaves. Read at the final
  state this names the result buffer: it holds `W5` at its reference, and each argument array holds what it was
  launched with.
-/
import proofs.«143341_j25091198943314_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and at the end every unscoped buffer of every
    core holds the last boundary's contents `W5`: whatever follows from that of a final memory holds of every final
    state. The launch theorem for a program of several regions, over the five segments, from the thread state "every
    unscoped buffer at the launch memory" to "every unscoped buffer at `W5`". -/
theorem run_end {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- In particular the result buffer ends at `W5` there, and every argument array as launched (the argument arrays are
    written by no host operation and by no region, so the fold at an argument walks back to the launch memory). -/
theorem run_result : θ_run defs (onTc (τ := τ) (main (F := F))) ⟨m, fun _ => 0, ρ⟩ (fun r => ∀ c : Dev nD,
      r.2.mem ((c.tc : Thread nD τ).loc main_v34) = W5 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_end m ρ (fun s h c =>
      ⟨h c _ (mem_uc main_v34 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Hand

end
-- ==== Proof.KernelValue.lean ====
/-
  The idealized kernel's result as a function of its arguments.

  The run leaves the result buffer at the last boundary's contents. Walking the five segments back, at the extended
  reals:
  · after the first region the projection buffer holds the full product x·W1 (the 25 grid points' blocks tile it),
    which is the reference's first `dot_general`;
  · so the first host stretch leaves the reference's hidden layer;
  · after the second region the second projection buffer holds the full product h·W2 of that hidden layer, the
    reference's second `dot_general`;
  · so the second host stretch leaves the reference's result.
-/
import proofs.«143341_j25091198943314_1_alg».proof.Proof.HostStretches
import proofs.«143341_j25091198943314_1_alg».proof.Proof.DenseLayer1
import proofs.«143341_j25091198943314_1_alg».proof.Proof.DenseLayer2
import proofs.«143341_j25091198943314_1_alg».proof.Proof.KernelRun

set_option maxRecDepth 16384

noncomputable section

namespace Cert.KernelIdeal.Hand

open Cert.KernelIdeal Cert.KernelIdeal.Gen Cert.KernelIdeal.Dense
open Idealize.ShloMosaic Idealize.ShloMosaic.TcCoe Idealize.SL.Sem Idealize.ShloMosaic.StableHlo

variable (m : (ℓ : Loc nD τ sig) → Buf (Elt Ideal) ℓ) (ρ : Dev nD → PrngReg)

/-- After region 0 the first projection buffer holds x·W1. -/
theorem W1_v0 (c : Dev nD) : W1 m ρ c (Proc.devRef .tc main_v0)
    = Cert.ReferenceIdeal.Read.val_main_v0 (F := Ideal) (m ((c : Thread nD τ).loc main_arg0)) (m ((c : Thread nD τ).loc main_arg4)) :=
  (W1_arr m ρ c 2).trans (final1 (V0 m ρ) c)

/-- After the first host stretch the hidden-layer buffer holds the reference's hidden layer. -/
theorem W3_v17 (c : Dev nD) : W3 m ρ c (Proc.devRef .tc main_v17)
    = Cert.ReferenceIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  stretch1 m ρ c (W1_v0 m ρ c)

/-- After region 1 the second projection buffer holds h·W2. -/
theorem W4_v18 (c : Dev nD) : W4 m ρ c (Proc.devRef .tc main_v18)
    = Cert.ReferenceIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 2).trans ((final2 (V3 m ρ) c).trans ?_)
  unfold prod2
  rw [show V3 m ρ c main_v17 = W3 m ρ c (Proc.devRef .tc main_v17) from rfl, show V3 m ρ c main_arg6 = W3 m ρ c (Proc.devRef .tc main_arg6) from rfl,
    W3_v17, W3_arg6]
  rfl

/-- After the second host stretch the result buffer holds the reference's result term. -/
theorem W5_v34 (c : Dev nD) : W5 m ρ c (Proc.devRef .tc main_v34)
    = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  stretch2 m ρ c (W4_v18 m ρ c)

/-- Every weakly fair execution of the idealized kernel terminates with the result buffer at the reference's result
    term of the launch arguments, and the arguments unchanged. -/
theorem run : θ_run defs (onTc (τ := τ) (main (F := Ideal))) ⟨m, fun _ => 0, ρ⟩ (fun r => ∀ c : Dev nD,
      r.2.mem ((c.tc : Thread nD τ).loc main_v34) = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (W5_v34 m ρ c), (h c).2⟩) (run_result (F := Ideal) m ρ)

end Cert.KernelIdeal.Hand

end
-- ==== Proof.lean ====
/-
  A two-layer graph convolution: out = A·(relu(A·(x·W1) + b1)·W2) + b2, where A is the sparse adjacency given by the edge
  lists (rows, cols, vals) and A·h is computed on the host by gathering the rows h[cols[e]], scaling them by vals[e] and
  scatter-adding them into rows[e].

  The kernel computes the two dense products x·W1 and h·W2 in two kernel regions (row blocks of 2000, operands narrowed
  to bf16, f32 accumulation) and everything else on the host; the reference computes the dense products by the host's
  `dot_general` and the same host operations around them. Read at the extended reals a change of float format is the
  identity, a matrix product into a zero accumulator is the plain sum ∑ₖ a[r, k]·w[k, c], and so is the host's
  `dot_general`: each region leaves in its result buffer exactly the array the reference's `dot_general` produces.
  The host operations around the products are the same in both programs, applied to equal arrays, and are never opened.
  The equation uses no algebraic law beyond 0 + s = s, so it holds at every extended-real input: the finiteness
  precondition is not used.

  The three frames: the kernel's two are the generated frame certificates; the reference has no kernel, and its frame
  is its run with the result dropped. The idealization rewrote nothing, so `preserves` is trivial.
-/
import proofs.«143341_j25091198943314_1_alg».proof.Defs
import proofs.«143341_j25091198943314_1_alg».proof.Proof.Gen.Kernel
import proofs.«143341_j25091198943314_1_alg».proof.Proof.Gen.Kernel.Skeleton
import proofs.«143341_j25091198943314_1_alg».proof.Proof.Gen.Kernel.Launch
import proofs.«143341_j25091198943314_1_alg».proof.Proof.Gen.Kernel.Points
import proofs.«143341_j25091198943314_1_alg».proof.Proof.Gen.Kernel.Frame
import proofs.«143341_j25091198943314_1_alg».proof.Proof.Gen.KernelIdeal
import proofs.«143341_j25091198943314_1_alg».proof.Proof.Gen.KernelIdeal.Skeleton
import proofs.«143341_j25091198943314_1_alg».proof.Proof.Gen.KernelIdeal.Launch
import proofs.«143341_j25091198943314_1_alg».proof.Proof.Gen.KernelIdeal.Points
import proofs.«143341_j25091198943314_1_alg».proof.Proof.Gen.KernelIdeal.Frame
import proofs.«143341_j25091198943314_1_alg».proof.Proof.Gen.ReferenceIdeal
import proofs.«143341_j25091198943314_1_alg».proof.Proof.Gen.ReferenceIdeal.Run
import proofs.«143341_j25091198943314_1_alg».proof.Proof.Gen.ReferenceIdeal.Read
import proofs.«143341_j25091198943314_1_alg».proof.Proof.Gen.Pre_finite_inputs
import proofs.«143341_j25091198943314_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result buffer at one term of the arguments — the reference's composed stages —, the
    kernel's by reading its five segments back (the two regions' result arrays are the two `dot_general`s), the
    reference's by its run; the arguments agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  exact Cert.ReferenceIdeal.Read.val_main_v34_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
